-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 40
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S1x128, .f32⟩
  | .hbm, ⟨39, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_cst : Ref sig .tc := ⟨.hbm, 46, rfl⟩
abbrev main_call0_v0 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  The layer both programs compute, as one function of six arrays, index by index, over the extended reals.

  Each of the 100000 nodes has 128 features. With `nb` the node's aggregated neighbour features, the
  output at node `r`, channel `j` is

      max ( (Σ_k x[r,k] · W_self[j,k] + b_self[j]) + (Σ_k nb[r,k] · W_neigh[j,k] + b_neigh[j]) , 0 )

  — two linear maps (each a product with the TRANSPOSED weight matrix, plus a bias), added, then clamped
  below at zero. One program adds the two linear maps as written here; the other adds the four summands
  from left to right, `((x·W_selfᵀ + b_self) + nb·W_neighᵀ) + b_neigh`. Addition of extended reals is
  associative (also at the infinities: `⊤ + ⊥ = ⊥` whatever the grouping), so the two groupings agree for
  EVERY value of the inputs; no finiteness is used.
-/
import Idealize.ShloMosaic.PureOps.Ideal
import Idealize.ShloMosaic.Lib.ValueIdx

noncomputable section

namespace Cert.Layer

open Idealize.ShloMosaic Idealize.ShloMosaic.ValueIdx

/-- Per-node features: 100000 nodes, 128 channels. -/
abbrev Nodes : Shape := ⟨2, ![100000, 128]⟩
/-- A weight matrix: 128 output channels by 128 input channels. -/
abbrev Weights : Shape := ⟨2, ![128, 128]⟩
/-- A bias: one entry per output channel. -/
abbrev Bias : Shape := ⟨1, ![128]⟩

/-- One linear map at node `i 0`, output channel `i 1`: the node's row of `a` against ROW `i 1` of the
    weight matrix (that is, the product with the transposed matrix), plus the channel's bias. -/
def linear (a : Nodes.Idx → EReal) (w : Weights.Idx → EReal) (b : Bias.Idx → EReal) (i : Nodes.Idx) : EReal :=
  (∑ k : Fin 128, a (ix2 (i 0) k) * w (ix2 (i 1) k)) + b (ix1 (i 1))

/-- The layer: the node's own linear map plus its neighbourhood's, clamped below at zero. -/
def layer (x nb : Nodes.Idx → EReal) (wSelf : Weights.Idx → EReal) (bSelf : Bias.Idx → EReal)
    (wNeigh : Weights.Idx → EReal) (bNeigh : Bias.Idx → EReal) : Nodes.Idx → EReal :=
  fun i => max (linear x wSelf bSelf i + linear nb wNeigh bNeigh i) 0

/-- The same four summands added from left to right — self product, self bias, neighbour product, neighbour
    bias — are the layer: `((A + b) + N) + b' = (A + b) + (N + b')`, associativity of `+`. -/
theorem chain_eq_layer (x nb : Nodes.Idx → EReal) (wSelf : Weights.Idx → EReal) (bSelf : Bias.Idx → EReal)
    (wNeigh : Weights.Idx → EReal) (bNeigh : Bias.Idx → EReal) (i : Nodes.Idx) :
    max ((((∑ k : Fin 128, x (ix2 (i 0) k) * wSelf (ix2 (i 1) k)) + bSelf (ix1 (i 1)))
          + (∑ k : Fin 128, nb (ix2 (i 0) k) * wNeigh (ix2 (i 1) k))) + bNeigh (ix1 (i 1))) 0
      = layer x nb wSelf bSelf wNeigh bNeigh i := by
  unfold layer linear
  rw [add_assoc]

end Cert.Layer

end
-- ==== Proof.Body.lean ====
/-
  The kernel body's arithmetic, read at one entry of its 5000 × 128 output block.

  The body loads a block of node rows `a`, the matching block of neighbour rows `n`, two 128 × 128 matrices
  `u`, `v` (the weight matrices already transposed) and two 1 × 128 rows `b`, `d` (the biases), and stores

      max ( (a · u + b) + (n · v + d) , 0 )

  with `·` the matrix product and each bias row repeated down the 5000 rows. Over the extended reals the
  narrowing of the products' operands to a shorter float format is the identity, a product accumulated onto a
  zero block is the plain sum Σ_k a[p,k] · u[k,q], and the zero the result is clamped against is the number 0.
  So at row `p`, column `q` the stored value is

      max ( (Σ_k a[p,k]·u[k,q] + b[0,q]) + (Σ_k n[p,k]·v[k,q] + d[0,q]) , 0 ).

  The last lemma says when that is an entry of the layer (Layer.lean): when the loaded blocks are the rows of
  the node and neighbour arrays at the entry's node, the matrices are the weight matrices read transposed,
  and the rows are the biases.
-/
import proofs.«167770_j14147622273528_1_alg».proof.Proof.Gen.KernelIdeal.Skeleton
import proofs.«167770_j14147622273528_1_alg».proof.Proof.Layer
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- In the block product, the left operand's row coordinate is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- In the block product, the right operand's column coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix, accumulated onto zero, at row `p`, column `q`: the sum over
    the shared axis of the products `a[p,k] · w[k,q]`. -/
theorem blockProduct_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- A 1 × 128 row repeated down 5000 rows, at row `p`, column `q`: the row's entry at column `q`. -/
theorem rowBroadcast_apply (b : Vec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The stored value at row `p`, column `q` of the block, from the six loaded values. -/
theorem stored_apply (a n : Vec Ideal S5000x128 .f32) (u v : Vec Ideal S128x128 .f32) (b d : Vec Ideal S1x128 .f32) (p : Fin 5000) (q : Fin 128) :
    k0_pay1 (F := Ideal) a n u v b d (ix2 p q)
      = max (((∑ k : Fin 128, a (ix2 p k) * u (ix2 k q)) + b (ix2 0 q)) + ((∑ k : Fin 128, n (ix2 p k) * v (ix2 k q)) + d (ix2 0 q))) 0 := by
  unfold k0_pay1
  rw [maximumf_apply, addf_apply, addf_apply, addf_apply, blockProduct_apply, blockProduct_apply, broadcast_apply,
    rowBroadcast_apply, rowBroadcast_apply, Ideal.ofBits_def, Ideal.ofBits_zero_f32]
  simp only [shapeCast_self, truncf_apply]

/-- The stored value at row `p`, column `q` of the block is the layer's value at entry `i` of the node array, as
    soon as row `p` of each loaded block is row `i 0` of its array, column `q` of each loaded matrix is row `i 1`
    of its weight matrix (the matrices are the transposes), and column `q` of each loaded row is entry `i 1` of
    its bias. -/
theorem stored_eq_layer (a n : Vec Ideal S5000x128 .f32) (u v : Vec Ideal S128x128 .f32) (b d : Vec Ideal S1x128 .f32)
    (x nb : Cert.Layer.Nodes.Idx → EReal) (wSelf : Cert.Layer.Weights.Idx → EReal) (bSelf : Cert.Layer.Bias.Idx → EReal)
    (wNeigh : Cert.Layer.Weights.Idx → EReal) (bNeigh : Cert.Layer.Bias.Idx → EReal)
    (p : Fin 5000) (q : Fin 128) (i : Cert.Layer.Nodes.Idx)
    (ha : ∀ k : Fin 128, a (ix2 p k) = x (ix2 (i 0) k))
    (hn : ∀ k : Fin 128, n (ix2 p k) = nb (ix2 (i 0) k))
    (hu : ∀ k : Fin 128, u (ix2 k q) = wSelf (ix2 (i 1) k))
    (hv : ∀ k : Fin 128, v (ix2 k q) = wNeigh (ix2 (i 1) k))
    (hb : b (ix2 0 q) = bSelf (ix1 (i 1)))
    (hd : d (ix2 0 q) = bNeigh (ix1 (i 1))) :
    k0_pay1 (F := Ideal) a n u v b d (ix2 p q) = Cert.Layer.layer x nb wSelf bSelf wNeigh bNeigh i := by
  rw [stored_apply]
  unfold Cert.Layer.layer Cert.Layer.linear
  simp only [ha, hn, hu, hv, hb, hd]

end Cert.KernelIdeal.Body

end
-- ==== Proof.Windows.lean ====
/-
  What four of the kernel's input windows hold when the region is entered, read at an entry.

  Before the region the program transposes the two weight matrices and reshapes the two biases from 128
  entries to one row of 128. So the matrix a window stages has, at row `k`, column `q`, the weight matrix's
  entry at row `q`, column `k`; and the row a window stages has, at column `q`, the bias's entry `q`.
  (The node features are staged as given; the neighbour means are staged as the preceding operations leave
  them, and nothing here looks inside them.)
-/
import proofs.«167770_j14147622273528_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Windows

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The staged self matrix is the transpose of the self weight matrix. -/
theorem selfMatrix (c : Dev nD) :
    (V m c main_v23 : S128x128.Idx → Elt F .f32) = transpose S128x128 [1, 0] (m ((c : Thread nD τ).loc main_arg2)) transposes_S128x128_S128x128_1_0 := by
  dsimp only [Gen.V, Gen.hostOps0]; after_results <;> rfl

/-- The staged neighbour matrix is the transpose of the neighbour weight matrix. -/
theorem neighMatrix (c : Dev nD) :
    (V m c main_v24 : S128x128.Idx → Elt F .f32) = transpose S128x128 [1, 0] (m ((c : Thread nD τ).loc main_arg4)) transposes_S128x128_S128x128_1_0 := by
  dsimp only [Gen.V, Gen.hostOps0]; after_results <;> rfl

/-- The staged self row is the self bias reshaped to one row. -/
theorem selfRow (c : Dev nD) :
    (V m c main_v25 : S1x128.Idx → Elt F .f32) = shapeCast S1x128 (m ((c : Thread nD τ).loc main_arg3)) shapeCasts_S128_S1x128 := by
  dsimp only [Gen.V, Gen.hostOps0]; after_results <;> rfl

/-- The staged neighbour row is the neighbour bias reshaped to one row. -/
theorem neighRow (c : Dev nD) :
    (V m c main_v26 : S1x128.Idx → Elt F .f32) = shapeCast S1x128 (m ((c : Thread nD τ).loc main_arg5)) shapeCasts_S128_S1x128 := by
  dsimp only [Gen.V, Gen.hostOps0]; after_results <;> rfl

/-- A transposed 128 × 128 matrix at row `k`, column `q` is the matrix at row `q`, column `k`. -/
theorem transposed_apply (w : S128x128.Idx → Elt F .f32) (k q : Fin 128) :
    transpose S128x128 [1, 0] w transposes_S128x128_S128x128_1_0 (ix2 k q) = w (ix2 q k) :=
  transpose_apply [1, 0] w transposes_S128x128_S128x128_1_0 (ix2 k q) (ix2 q k) (fun b => match b with
    | ⟨0, _⟩ => rfl
    | ⟨1, _⟩ => rfl)

/-- 128 entries reshaped to one row of 128: the row's column `q` is entry `q`. -/
theorem asRow_apply (b : S128.Idx → Elt F .f32) (q : Fin 128) :
    shapeCast S1x128 b shapeCasts_S128_S1x128 (ix2 0 q) = b (ix1 q) :=
  shapeCast_apply b shapeCasts_S128_S1x128 (ix2 0 q) (ix1 q)
    (by rewrite [Shape.rowMajor_val_two, Shape.rowMajor_val_one]; show q.val = 0 * 128 + q.val; omega)

theorem selfMatrix_apply (c : Dev nD) (k q : Fin 128) :
    (V m c main_v23 : S128x128.Idx → Elt F .f32) (ix2 k q) = (m ((c : Thread nD τ).loc main_arg2) : S128x128.Idx → Elt F .f32) (ix2 q k) := by
  rw [selfMatrix, transposed_apply]

theorem neighMatrix_apply (c : Dev nD) (k q : Fin 128) :
    (V m c main_v24 : S128x128.Idx → Elt F .f32) (ix2 k q) = (m ((c : Thread nD τ).loc main_arg4) : S128x128.Idx → Elt F .f32) (ix2 q k) := by
  rw [neighMatrix, transposed_apply]

theorem selfRow_apply (c : Dev nD) (q : Fin 128) :
    (V m c main_v25 : S1x128.Idx → Elt F .f32) (ix2 0 q) = (m ((c : Thread nD τ).loc main_arg3) : S128.Idx → Elt F .f32) (ix1 q) := by
  rw [selfRow, asRow_apply]

theorem neighRow_apply (c : Dev nD) (q : Fin 128) :
    (V m c main_v26 : S1x128.Idx → Elt F .f32) (ix2 0 q) = (m ((c : Thread nD τ).loc main_arg5) : S128.Idx → Elt F .f32) (ix1 q) := by
  rw [neighRow, asRow_apply]

end Cert.KernelIdeal.Windows

end
-- ==== Proof.BlockReads.lean ====
/-
  Where each window's block sits in its array, at any of the 20 grid points.

  The output is written in 20 blocks of 5000 consecutive rows (all 128 columns); grid point `t` writes block
  number `t`. At the same point the node features and the neighbour means are read through the block with the
  SAME row range, while the two matrices and the two bias rows are read whole (block (0, 0)) at every point.
  An entry at coordinate `y` inside a block with block index `b` on an axis of block extent `s` sits at array
  coordinate `b · s + y` on that axis.

  So, with (p, q) an entry of the output block and `i` its place in the output array: row `p` of the node (or
  neighbour) block is row `i 0` of the array, the matrices and the bias rows are read at their own coordinates,
  and `i 1 = q`. Every statement is about an ARBITRARY array held behind the window — what the array contains
  plays no role here.
-/
import proofs.«167770_j14147622273528_1_alg».proof.Proof.Gen.KernelIdeal.Frame
import Idealize.ShloMosaic.Lib.ValueIdx
import Idealize.ShloMosaic.Lib.Pipeline.Value

noncomputable section

namespace Cert.KernelIdeal.BlockReads

open Cert.KernelIdeal Cert.KernelIdeal.Gen Idealize.ShloMosaic Idealize.ShloMosaic.TcCoe Idealize.SL.Sem
open Idealize.ShloMosaic.ValueIdx

/-- The block indices at a grid point, decided over the 20 points: the two row-blocked inputs move with the
    output along the rows and stay at column block 0; the four whole-array inputs stay at block (0, 0); the
    output stays at column block 0. -/
theorem block_indices : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every one of the 20 row blocks of the output is some grid point's. -/
theorem rows_onto : ∀ b : Fin 20, ∃ t : Fin cfg0.N, win0_6.index t = ![b.val, 0] :=
  (by decide +kernel : ∀ b : Fin 20, ∃ t : Fin grid0.N, win0_6.index t = ![b.val, 0])

/-- The column of an output-block entry in the output array is its column in the block. -/
theorem out_col (t : Fin cfg0.N) (p : Fin 5000) (q : Fin 128) :
    (((cfg0.win 6).blk t).view.emb (ix2 p q) : S100000x128.Idx) 1 = q := by
  obtain ⟨e00, e01, e10, e11, e20, e21, e30, e31, e40, e41, e50, e51, e61⟩ := block_indices t
  exact Fin.ext (by show win0_6.index t (1 : Fin 2) * 128 + 1 * q.val = q.val; omega)

/-- Row `p` of the node-feature block is the output entry's row of the array. -/
theorem nodeRows_read (A : S100000x128.Idx → Elt Ideal .f32) (t : Fin cfg0.N) (p : Fin 5000) (q k : Fin 128) :
    ((cfg0.win 0).blk t).view.read (Elt Ideal) A (ix2 p k) = A (ix2 ((((cfg0.win 6).blk t).view.emb (ix2 p q) : S100000x128.Idx) 0) k) := by
  obtain ⟨e00, e01, e10, e11, e20, e21, e30, e31, e40, e41, e50, e51, e61⟩ := block_indices t
  show A (((cfg0.win 0).blk t).view.emb (ix2 p k)) = _
  refine congrArg A (funext fun a => Fin.ext ?_)
  match a with
  | ⟨0, _⟩ => show win0_0.index t (0 : Fin 2) * 5000 + 1 * p.val = win0_6.index t (0 : Fin 2) * 5000 + 1 * p.val; omega
  | ⟨1, _⟩ => show win0_0.index t (1 : Fin 2) * 128 + 1 * k.val = k.val; omega

/-- Row `p` of the neighbour-mean block is the output entry's row of the array. -/
theorem neighRows_read (A : S100000x128.Idx → Elt Ideal .f32) (t : Fin cfg0.N) (p : Fin 5000) (q k : Fin 128) :
    ((cfg0.win 1).blk t).view.read (Elt Ideal) A (ix2 p k) = A (ix2 ((((cfg0.win 6).blk t).view.emb (ix2 p q) : S100000x128.Idx) 0) k) := by
  obtain ⟨e00, e01, e10, e11, e20, e21, e30, e31, e40, e41, e50, e51, e61⟩ := block_indices t
  show A (((cfg0.win 1).blk t).view.emb (ix2 p k)) = _
  refine congrArg A (funext fun a => Fin.ext ?_)
  match a with
  | ⟨0, _⟩ => show win0_1.index t (0 : Fin 2) * 5000 + 1 * p.val = win0_6.index t (0 : Fin 2) * 5000 + 1 * p.val; omega
  | ⟨1, _⟩ => show win0_1.index t (1 : Fin 2) * 128 + 1 * k.val = k.val; omega

/-- The self matrix is read whole: the block's entry (k, q) is the array's. -/
theorem selfMatrix_read (A : S128x128.Idx → Elt Ideal .f32) (t : Fin cfg0.N) (k q : Fin 128) :
    ((cfg0.win 2).blk t).view.read (Elt Ideal) A (ix2 k q) = A (ix2 k q) := by
  obtain ⟨e00, e01, e10, e11, e20, e21, e30, e31, e40, e41, e50, e51, e61⟩ := block_indices t
  show A (((cfg0.win 2).blk t).view.emb (ix2 k q)) = _
  refine congrArg A (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The neighbour matrix is read whole. -/
theorem neighMatrix_read (A : S128x128.Idx → Elt Ideal .f32) (t : Fin cfg0.N) (k q : Fin 128) :
    ((cfg0.win 4).blk t).view.read (Elt Ideal) A (ix2 k q) = A (ix2 k q) := by
  obtain ⟨e00, e01, e10, e11, e20, e21, e30, e31, e40, e41, e50, e51, e61⟩ := block_indices t
  show A (((cfg0.win 4).blk t).view.emb (ix2 k q)) = _
  refine congrArg A (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The self bias row is read whole. -/
theorem selfRow_read (A : S1x128.Idx → Elt Ideal .f32) (t : Fin cfg0.N) (q : Fin 128) :
    ((cfg0.win 3).blk t).view.read (Elt Ideal) A (ix2 0 q) = A (ix2 0 q) := by
  obtain ⟨e00, e01, e10, e11, e20, e21, e30, e31, e40, e41, e50, e51, e61⟩ := block_indices t
  show A (((cfg0.win 3).blk t).view.emb (ix2 0 q)) = _
  refine congrArg A (funext fun a => Fin.ext ?_)
  match a with
  | ⟨0, _⟩ => show win0_3.index t (0 : Fin 2) * 1 + 1 * ((0 : Fin 1) : Nat) = ((0 : Fin 1) : Nat); omega
  | ⟨1, _⟩ => show win0_3.index t (1 : Fin 2) * 128 + 1 * q.val = q.val; omega

/-- The neighbour bias row is read whole. -/
theorem neighRow_read (A : S1x128.Idx → Elt Ideal .f32) (t : Fin cfg0.N) (q : Fin 128) :
    ((cfg0.win 5).blk t).view.read (Elt Ideal) A (ix2 0 q) = A (ix2 0 q) := by
  obtain ⟨e00, e01, e10, e11, e20, e21, e30, e31, e40, e41, e50, e51, e61⟩ := block_indices t
  show A (((cfg0.win 5).blk t).view.emb (ix2 0 q)) = _
  refine congrArg A (funext fun a => Fin.ext ?_)
  match a with
  | ⟨0, _⟩ => show win0_5.index t (0 : Fin 2) * 1 + 1 * ((0 : Fin 1) : Nat) = ((0 : Fin 1) : Nat); omega
  | ⟨1, _⟩ => show win0_5.index t (1 : Fin 2) * 128 + 1 * q.val = q.val; omega

/-- An index of the output array is in point `t`'s block iff, on each axis, it is within the block's range. -/
theorem mem_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v27).slice (win0_6.rect t)).set ↔ _
  rw [View.set_slice_whole, Rect.mem_set_unit]
  exact Iff.rfl

/-- The 20 blocks cover the output array: row `r` lies in row block `r / 5000`, and every point writes back. -/
theorem covered (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := rows_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

end Cert.KernelIdeal.BlockReads

end
-- ==== Proof.Result.lean ====
/-
  The kernel's result array is the layer (Layer.lean) of the node features, the neighbour means as the
  region finds them, the two weight matrices and the two biases.

  At grid point `t` the body stores, at entry (p, q) of the output block, the value Body.lean computes from the
  six loaded blocks. BlockReads.lean says which array entries those blocks hold and Windows.lean what the
  staged matrices and rows are (transposed weights, biases as rows); together they are the hypotheses under
  which the stored value is the layer's value at the entry's place in the output array. So every point writes
  its block of ONE array-wide function, the 20 blocks cover the array, and after the run the output array is
  that function.
-/
import proofs.«167770_j14147622273528_1_alg».proof.Proof.Gen.KernelIdeal.Value
import proofs.«167770_j14147622273528_1_alg».proof.Proof.Layer
import proofs.«167770_j14147622273528_1_alg».proof.Proof.Body
import proofs.«167770_j14147622273528_1_alg».proof.Proof.Windows
import proofs.«167770_j14147622273528_1_alg».proof.Proof.BlockReads
import Idealize.ShloMosaic.Lib.Pipeline.Value

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer of the launch contents of the arguments, with the neighbour means the array the operations
    before the region leave. -/
def result (c : Dev nD) : S100000x128.Idx → EReal :=
  Cert.Layer.layer (m ((c : Thread nD τ).loc main_arg0)) (V m c main_v22) (m ((c : Thread nD τ).loc main_arg2))
    (m ((c : Thread nD τ).loc main_arg3)) (m ((c : Thread nD τ).loc main_arg4)) (m ((c : Thread nD τ).loc main_arg5))

/-- What the body stores at entry `j` of point `t`'s output block is `result` at that entry's place in the array. -/
theorem stored_at (c : Dev nD) (t : Fin cfg0.N) (j : S5000x128.Idx) :
    k0_pay1 (F := Ideal) (iblk m c 0 t) (iblk m c 1 t) (iblk m c 2 t) (iblk m c 4 t) (iblk m c 3 t) (iblk m c 5 t) j
      = result m c (((cfg0.win 6).blk t).view.emb j) := by
  obtain ⟨p, q, rfl⟩ : ∃ (p : Fin 5000) (q : Fin 128), j = ix2 p q := ⟨j 0, j 1, eq_ix2 j⟩
  unfold result
  refine Body.stored_eq_layer (iblk m c 0 t) (iblk m c 1 t) (iblk m c 2 t) (iblk m c 4 t) (iblk m c 3 t) (iblk m c 5 t)
    (m ((c : Thread nD τ).loc main_arg0)) (V m c main_v22) (m ((c : Thread nD τ).loc main_arg2))
    (m ((c : Thread nD τ).loc main_arg3)) (m ((c : Thread nD τ).loc main_arg4)) (m ((c : Thread nD τ).loc main_arg5))
    p q (((cfg0.win 6).blk t).view.emb (ix2 p q)) (fun k => ?_) (fun k => ?_) (fun k => ?_) (fun k => ?_) ?_ ?_
  · refine (BlockReads.nodeRows_read (V m c main_arg0) t p q k).trans ?_
    rw [V_main_arg0]
  · exact BlockReads.neighRows_read (V m c main_v22) t p q k
  · refine (BlockReads.selfMatrix_read (V m c main_v23) t k q).trans ((Windows.selfMatrix_apply m c k q).trans ?_)
    rw [BlockReads.out_col t p q]
  · refine (BlockReads.neighMatrix_read (V m c main_v24) t k q).trans ((Windows.neighMatrix_apply m c k q).trans ?_)
    rw [BlockReads.out_col t p q]
  · refine (BlockReads.selfRow_read (V m c main_v25) t q).trans ((Windows.selfRow_apply m c q).trans ?_)
    rw [BlockReads.out_col t p q]
  · refine (BlockReads.neighRow_read (V m c main_v26) t q).trans ((Windows.neighRow_apply m c q).trans ?_)
    rw [BlockReads.out_col t p q]

/-- What point `t` writes back is its block of `result`. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero zero_offsets]
  simp only [View.ld_unit_zero (S := S5000x128) zero_offsets, View.ld_unit_zero (S := S128x128) zero_offsets, View.ld_unit_zero (S := S1x128) zero_offsets]
  funext j
  exact stored_at m c t j

/-- The output array after the run is `result`: every point writes its block of it, and the blocks cover the array. -/
theorem final (c : Dev nD) : (dats m 0 c).arrAt 6 cfg0.N = result m c :=
  (dats m 0 c).arrAt_eq_of_cover 6 (result m c) (fun t _ => flushed_eq m c t) BlockReads.covered

/-- Every weakly fair execution of the kernel program ends with the output array at `result` and the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Result

end
-- ==== Proof.Reference.lean ====
/-
  The reference's result is the layer (Layer.lean) of its six inputs' worth of arrays: the node features, the
  neighbour means its own first operations compute, the two weight matrices and the two biases.

  Read at node `i 0`, channel `i 1`, operation by operation: each matrix product is the sum over `k` of a row
  entry times an entry of the TRANSPOSED weight matrix — entry (k, i 1) of the transpose, that is entry (i 1, k)
  of the matrix —; each bias is stretched first to one row and then down all rows, so it contributes its entry
  `i 1`; the four summands are added from left to right; the clamp is against a constant zero. That is the
  left-to-right sum of Layer.lean, which is the layer by associativity.
  The neighbour means enter only as an array: nothing here depends on how they were computed.
-/
import proofs.«167770_j14147622273528_1_alg».proof.Proof.Gen.ReferenceIdeal.Read
import proofs.«167770_j14147622273528_1_alg».proof.Proof.Layer

noncomputable section

namespace Cert.ReferenceIdeal.AsLayer

open Cert.ReferenceIdeal Cert.ReferenceIdeal.Gen Cert.ReferenceIdeal.Read Idealize.ShloMosaic Idealize.ShloMosaic.ValueIdx

/-- The reference's result array is the layer of the node features `x0`, the neighbour means computed from
    `x0` and the edge list `x1`, the weights `x2`, `x4` and the biases `x3`, `x5`. -/
theorem result_eq_layer (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v34 (F := Ideal) x0 x1 x2 x3 x4 x5
      = Cert.Layer.layer x0 (val_main_v22 (F := Ideal) x0 x1) x2 x3 x4 x5 := by
  funext i
  -- where each operand is read: row `i 0` of the left factor, and (through the transpose) row `i 1` of a weight matrix
  have el : ∀ k : Fin 128, lidx_main_v24 i k = ix2 (n0 := 100000) (n1 := 128) (i 0) k := fun k => funext fun a => Fin.ext (by
    match a with
    | ⟨0, _⟩ => rfl
    | ⟨1, _⟩ => rfl)
  have er : ∀ k : Fin 128, idx_main_v23 (ridx_main_v24 i k) = ix2 (n0 := 128) (n1 := 128) (i 1) k := fun k => funext fun a => Fin.ext (by
    match a with
    | ⟨0, _⟩ => rfl
    | ⟨1, _⟩ => rfl)
  have el' : ∀ k : Fin 128, lidx_main_v29 i k = ix2 (n0 := 100000) (n1 := 128) (i 0) k := fun k => funext fun a => Fin.ext (by
    match a with
    | ⟨0, _⟩ => rfl
    | ⟨1, _⟩ => rfl)
  have er' : ∀ k : Fin 128, idx_main_v28 (ridx_main_v29 i k) = ix2 (n0 := 128) (n1 := 128) (i 1) k := fun k => funext fun a => Fin.ext (by
    match a with
    | ⟨0, _⟩ => rfl
    | ⟨1, _⟩ => rfl)
  -- a bias stretched to a row and then down the rows is read at its entry `i 1`
  have eb : idx_main_v25 (idx_main_v26 i) = ix1 (n := 128) (i 1) := funext fun a => Fin.ext (by
    match a with
    | ⟨0, _⟩ => rfl)
  have eb' : idx_main_v31 (idx_main_v32 i) = ix1 (n := 128) (i 1) := funext fun a => Fin.ext (by
    match a with
    | ⟨0, _⟩ => rfl)
  refine Eq.trans ?_ (Cert.Layer.chain_eq_layer x0 (val_main_v22 (F := Ideal) x0 x1) x2 x3 x4 x5 i)
  rw [val_main_v34_apply, val_main_v33_apply, val_main_v30_apply, val_main_v27_apply, val_main_v24_apply, val_main_v29_apply,
    val_main_v26_apply, val_main_v25_apply, val_main_v32_apply, val_main_v31_apply, val_main_call0_v0_apply, val_main_call0_cst_apply]
  simp only [val_main_v23_apply, val_main_v28_apply, el, er, el', er', eb, eb', Ideal.addf_def, Ideal.maximumf_def, Ideal.ofBits_def, Ideal.ofBits_zero_f32]

end Cert.ReferenceIdeal.AsLayer

end
-- ==== Proof.NeighbourMeans.lean ====
/-
  Both programs compute the neighbour means by the same operations, in the same order, from the node
  features and the edge list: the source indices wrapped into range, the source rows gathered, the rows summed
  onto their destination nodes, the destinations counted the same way, the counts clamped below at one, and
  the sums divided by them. So the array the kernel's region finds behind its second window IS the array the
  reference feeds to its second matrix product — the same term of the same two inputs, whatever the edge list
  holds. Nothing else about the neighbour means is needed.
-/
import proofs.«167770_j14147622273528_1_alg».proof.Proof.Gen.KernelIdeal.Frame
import proofs.«167770_j14147622273528_1_alg».proof.Proof.Gen.ReferenceIdeal.Read
import Idealize.ShloMosaic.Lib.StableHlo.Run

noncomputable section

namespace Cert.Proof.NeighbourMeans

open Idealize.ShloMosaic Idealize.ShloMosaic.TcCoe Idealize.SL.Sem Idealize.ShloMosaic.StableHlo

set_option maxHeartbeats 4000000 in
/-- The array staged behind the kernel's neighbour window is the reference's neighbour-mean stage of the same
    node features and edge list: composing the operations before the region gives the reference's term. -/
theorem staged_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v22 : Cert.KernelIdeal.S100000x128.Idx → Elt Ideal .f32)
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp
  rfl

end Cert.Proof.NeighbourMeans

end
-- ==== Proof.lean ====
/-
  The certificate: a graph layer computed by a tiled kernel equals its plain reference over the extended reals.

  For 100000 nodes with 128 features each, an edge list, two 128 × 128 weight matrices and two biases, both
  programs first form each node's neighbour mean (the features of the sources of its incoming edges, summed and
  divided by their number, at least one), and then output, at node `r` and channel `j`,

      max ( x[r,·] · W_self[j,·] + b_self[j] + nb[r,·] · W_neigh[j,·] + b_neigh[j] , 0 ).

  The reference adds the four summands from left to right over whole arrays. The kernel works through the
  nodes in 20 blocks of 5000 rows; in each block it forms the two products with the pre-transposed matrices,
  adds each product's bias, adds the two, and clamps. Over the extended reals there is no rounding, so the
  narrowing of the products' operands is the identity and a block-by-block product is the product; what is
  left between the two programs is the grouping of one four-term sum, and addition is associative there
  without any condition on the values. The precondition (finite inputs) is therefore never opened.

  The modules: Layer (the function and the regrouping), Body (the kernel body's stored value at an entry),
  Windows and BlockReads (what the kernel's windows hold and where their blocks sit), Result (the kernel's
  output array is the layer), Reference (the reference's result is the layer), NeighbourMeans (both programs
  hand the same neighbour-mean array to the layer). Below, the five claims.
-/
import proofs.«167770_j14147622273528_1_alg».proof.Defs
import proofs.«167770_j14147622273528_1_alg».proof.Proof.Gen.Kernel
import proofs.«167770_j14147622273528_1_alg».proof.Proof.Gen.Kernel.Skeleton
import proofs.«167770_j14147622273528_1_alg».proof.Proof.Gen.Kernel.Launch
import proofs.«167770_j14147622273528_1_alg».proof.Proof.Gen.Kernel.Points
import proofs.«167770_j14147622273528_1_alg».proof.Proof.Gen.Kernel.Frame
import proofs.«167770_j14147622273528_1_alg».proof.Proof.Gen.KernelIdeal
import proofs.«167770_j14147622273528_1_alg».proof.Proof.Gen.KernelIdeal.Skeleton
import proofs.«167770_j14147622273528_1_alg».proof.Proof.Gen.KernelIdeal.Launch
import proofs.«167770_j14147622273528_1_alg».proof.Proof.Gen.KernelIdeal.Points
import proofs.«167770_j14147622273528_1_alg».proof.Proof.Gen.KernelIdeal.Frame
import proofs.«167770_j14147622273528_1_alg».proof.Proof.Gen.ReferenceIdeal
import proofs.«167770_j14147622273528_1_alg».proof.Proof.Gen.KernelIdeal.Value
import proofs.«167770_j14147622273528_1_alg».proof.Proof.Gen.ReferenceIdeal.Run
import proofs.«167770_j14147622273528_1_alg».proof.Proof.Gen.ReferenceIdeal.Read
import proofs.«167770_j14147622273528_1_alg».proof.Proof.Gen.Pre_finite_inputs
import Idealize.ShloMosaic.Adequacy
import Idealize.ShloMosaic.Init

import proofs.«167770_j14147622273528_1_alg».proof.Proof.Layer
import proofs.«167770_j14147622273528_1_alg».proof.Proof.Result
import proofs.«167770_j14147622273528_1_alg».proof.Proof.Reference
import proofs.«167770_j14147622273528_1_alg».proof.Proof.NeighbourMeans

noncomputable section

namespace Cert.Proof

open Idealize.ShloMosaic Idealize.SL.Sem Cert.Kernel

/-- The kernel program as printed terminates without fault and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the same output array: the layer of
    the arguments with the neighbour means both compute. The kernel's array is the layer by Result.lean; the
    reference's by Reference.lean, after its arguments are replaced by the kernel's (they agree) and its
    neighbour means by the kernel's (NeighbourMeans.lean). -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.AsLayer.result_eq_layer,
    (hagree c).1, (hagree c).2.1, (hagree c).2.2.1, (hagree c).2.2.2.1, (hagree c).2.2.2.2.1, (hagree c).2.2.2.2.2]
  show _ = Cert.KernelIdeal.Result.result m c
  unfold Cert.KernelIdeal.Result.result
  rw [Cert.Proof.NeighbourMeans.staged_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
